-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x1600000 32) (main_arg2 : FVec F S1x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x1 : Shape := ⟨2, ![10000, 1]⟩
abbrev S10000x64 : Shape := ⟨2, ![10000, 64]⟩
abbrev S1700000x64 : Shape := ⟨2, ![1700000, 64]⟩
abbrev S1x1 : Shape := ⟨2, ![1, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S1x1, .f32⟩
  | .hbm, ⟨85, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x1_S1x64_S10000x64_1_0_0_1_n_n_wf : DotDims.WF S10000x1 S1x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S100000x1, .f32⟩
  | 1 => ⟨S2x1600000, .i32⟩
  | 2 => ⟨S1x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x1, .f32⟩

abbrev hbmTy0_1 (i : Nat) : BufTy := match i % 128 with
  | 0 => ⟨S100000x64, .f32⟩
  | 1 => ⟨S100000x64, .f32⟩
  | 2 => ⟨S100000x1, .f32⟩
  | 3 => ⟨S1x1, .f32⟩
  | 4 => ⟨S100000x1, .f32⟩
  | 5 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x1_S1x64_S100000x64_1_0_0_1_n_n_wf : DotDims.WF S100000x1 S1x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The kernel program's run with its result named.

  The program is three tiled regions among stretches of host operations.  Its run from any launch memory ends with
  every unscoped buffer at the contents the last segment boundary names (the fold of the host stretches and the regions'
  write-backs over the launch memory); read at the result buffer this gives the result array, read at an argument it gives
  the argument as launched.  The statement is the frame statement with one more conjunct, the result buffer's contents.
-/
import proofs.«150524_j2680059593194_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the result buffer at the last
    boundary's contents and every argument as launched. -/
theorem run_out : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Out

end
-- ==== Proof.RefAgg.lean ====
/-
  The neighbourhood aggregation of one graph-convolution layer, as a function of the node features.

  For features h (one row of 64 numbers per node) the aggregated features are the scatter-add, at each edge's target node, of
  the row of h gathered at the edge's source node times the edge's symmetric degree normalisation; the edge list is the input
  edge list followed by one self-loop per node, negative source indices wrapped once.  The index and normalisation arrays are
  the reference's own stages, functions of the edge-index input alone.
-/
import proofs.«150524_j2680059593194_1_alg».proof.Proof.RefRead

noncomputable section

namespace Cert.ReferenceIdeal.Stages

open Cert.ReferenceIdeal Cert.ReferenceIdeal.ReadP Idealize.ShloMosaic

/-- Aggregated features: gather at the sources, scale by the normalisation, scatter-add at the targets. -/
def agg (x1 : (⟨S2x1600000, .i32⟩ : BufTy).Contents (Elt Ideal)) (h : (⟨S100000x64, .f32⟩ : BufTy).Contents (Elt Ideal)) :
    (⟨S100000x64, .f32⟩ : BufTy).Contents (Elt Ideal) :=
  Host.scatterAdd (F := Ideal) (φ := .f32) scatter_S100000x64_S1700000x1_S1700000x64_1_0_0_1 (val_main_v41 (F := Ideal)) (val_main_v42 (F := Ideal) x1)
    (mulf (F := Ideal) (φ := .f32) (Host.gather (α := Ideal .f32) gather_S100000x64_S1700000x1_S1700000x64_1_0_n_n_0_1_164 h (val_main_v36 (F := Ideal) x1))
      (val_main_v39 (F := Ideal) x1))

end Cert.ReferenceIdeal.Stages

end
-- ==== Proof.Spec.lean ====
/-
  The two-layer graph convolution as three dense stages, index by index over the extended reals.

  Between the dense stages sits a neighbourhood aggregation (gather at the edge sources, scale by the
  symmetric degree normalisation, scatter-add at the edge targets); it is the same operation in both
  programs and is never opened here.  What is specified is only the dense part:

  * `lin1 x w`      : row p, column q of x · w            (one contracted term: x has one column)
  * `hid agg b`     : max (agg[p,k] + b[0,k]) 0           (bias as a 1×64 row, then the rectifier)
  * `lin2 agg b w`  : row p, column q of hid(agg, b) · w   (64 contracted terms)
  * `head agg b w c`: hid(agg, b) · w  plus the scalar c[0,0], one output column

  Zero is kept as the printed all-zero f32 word; it is the same word in both programs and is never evaluated.
-/
import Idealize.ShloMosaic.PureOps.Ideal
import Idealize.ShloMosaic.Lib.ValueIdx

noncomputable section

namespace Gcn

open Idealize.ShloMosaic Idealize.ShloMosaic.ValueIdx
open scoped BigOperators

abbrev Nx1 : Shape := ⟨2, ![100000, 1]⟩
abbrev Nx64 : Shape := ⟨2, ![100000, 64]⟩
abbrev R1x64 : Shape := ⟨2, ![1, 64]⟩
abbrev M64x64 : Shape := ⟨2, ![64, 64]⟩
abbrev M64x1 : Shape := ⟨2, ![64, 1]⟩
abbrev R1x1 : Shape := ⟨2, ![1, 1]⟩

/-- The rectifier's threshold: the all-zero f32 word read at the exact values. -/
abbrev zero : EReal := Ideal.ofBits .f32 0x00000000#32

/-- Entry (p, q) of the first projection: the product of an N×1 column with a 1×64 row. -/
def lin1 (x : FVec Ideal Nx1 .f32) (w : FVec Ideal R1x64 .f32) (p : Fin 100000) (q : Fin 64) : EReal :=
  ∑ k : Fin 1, x (ix2 p k) * w (ix2 k q)

/-- Entry (p, k) of the hidden activation: aggregated feature plus bias, rectified. -/
def hid (agg : FVec Ideal Nx64 .f32) (b : FVec Ideal R1x64 .f32) (p : Fin 100000) (k : Fin 64) : EReal :=
  max (agg (ix2 p k) + b (ix2 0 k)) zero

/-- Entry (p, q) of the second projection: the hidden activation times a 64×64 matrix. -/
def lin2 (agg : FVec Ideal Nx64 .f32) (b : FVec Ideal R1x64 .f32) (w : FVec Ideal M64x64 .f32)
    (p : Fin 100000) (q : Fin 64) : EReal :=
  ∑ k : Fin 64, hid agg b p k * w (ix2 k q)

/-- Entry (p, q) of the output: the hidden activation times a 64×1 column, plus the output bias. -/
def head (agg : FVec Ideal Nx64 .f32) (b : FVec Ideal R1x64 .f32) (w : FVec Ideal M64x1 .f32)
    (c : FVec Ideal R1x1 .f32) (p : Fin 100000) (q : Fin 1) : EReal :=
  (∑ k : Fin 64, hid agg b p k * w (ix2 k q)) + c (ix2 0 0)

end Gcn

end
-- ==== Proof.RefStages.lean ====
/-
  The reference's dense stages are the specification, entry by entry, and its second aggregation is the first one again.

  The reference computes, in order: the first projection x · W1 (one contracted term); the neighbourhood aggregation of it;
  bias, rectifier and the second projection (64 contracted terms); the aggregation again, for which it recomputes the edge
  list with self-loops, the degrees and the symmetric normalisation from the edge-index input by the same operations as the
  first time; bias, rectifier and the output projection plus the output bias.

  Each dense stage is read at an index (p, q): the dot product is the sum over the contracted coordinate k of the left factor
  at (p, k) times the right factor at (k, q); the bias row is read at (0, k); the rectifier is the maximum with the all-zero
  word.  That is the specification's formula with the stage's own operands.  The recomputed index and normalisation arrays
  are equal to the first ones because each operation of the second chain is the same operation on equal operands.
-/
import proofs.«150524_j2680059593194_1_alg».proof.Proof.RefRead
import proofs.«150524_j2680059593194_1_alg».proof.Proof.RefAgg
import proofs.«150524_j2680059593194_1_alg».proof.Proof.Spec

noncomputable section

namespace Cert.ReferenceIdeal.Stages

open Cert.ReferenceIdeal Cert.ReferenceIdeal.ReadP Idealize.ShloMosaic Idealize.ShloMosaic.ValueIdx
open scoped BigOperators

/-! ## The first projection -/

/-- Entry (p, q) of the first projection is the one-term sum x[p,0] · w[0,q]. -/
theorem v4_eq (x0 : (⟨S100000x1, .f32⟩ : BufTy).Contents (Elt Ideal)) (x2 : (⟨S1x64, .f32⟩ : BufTy).Contents (Elt Ideal)) :
    val_main_v4 (F := Ideal) x0 x2 = fun j => Gcn.lin1 x0 x2 (j 0) (j 1) := by
  funext j
  obtain ⟨p, q, rfl⟩ : ∃ (p : Fin 100000) (q : Fin 64), j = ix2 p q := ⟨j 0, j 1, eq_ix2 j⟩
  rw [val_main_v4_apply]
  show _ = Gcn.lin1 x0 x2 p q
  unfold Gcn.lin1
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [el, er]

/-! ## The first aggregation -/

/-- The first aggregation is the aggregation of the first projection. -/
theorem v43_eq (x0 : (⟨S100000x1, .f32⟩ : BufTy).Contents (Elt Ideal)) (x1 : (⟨S2x1600000, .i32⟩ : BufTy).Contents (Elt Ideal)) (x2 : (⟨S1x64, .f32⟩ : BufTy).Contents (Elt Ideal)) :
    val_main_v43 (F := Ideal) x0 x1 x2 = agg x1 (val_main_v4 (F := Ideal) x0 x2) := by
  unfold val_main_v43 val_main_v40 val_main_v37
  rfl

/-! ## Bias, rectifier and the second projection -/

/-- Entry (p, q) of the second projection: the sum over k of max (agg₁[p,k] + b1[0,k]) 0 · W2[k,q]. -/
theorem v48_eq (x0 : (⟨S100000x1, .f32⟩ : BufTy).Contents (Elt Ideal)) (x1 : (⟨S2x1600000, .i32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) :
    val_main_v48 (F := Ideal) x0 x1 x2 x3 x4
      = fun j => Gcn.lin2 (val_main_v43 (F := Ideal) x0 x1 x2) (val_main_v44 (F := Ideal) x3) x4 (j 0) (j 1) := by
  funext j
  obtain ⟨p, q, rfl⟩ : ∃ (p : Fin 100000) (q : Fin 64), j = ix2 p q := ⟨j 0, j 1, eq_ix2 j⟩
  rw [val_main_v48_apply]
  show _ = Gcn.lin2 (val_main_v43 (F := Ideal) x0 x1 x2) (val_main_v44 (F := Ideal) x3) x4 p q
  unfold Gcn.lin2 Gcn.hid
  refine Finset.sum_congr rfl fun k _ => ?_
  have el : lidx_main_v48 (ix2 p q) k = ix2 p k := funext fun a => Fin.ext (by match a with | ⟨0, _⟩ => rfl | ⟨1, _⟩ => rfl)
  have er : ridx_main_v48 (ix2 p q) k = ix2 k q := funext fun a => Fin.ext (by match a with | ⟨0, _⟩ => rfl | ⟨1, _⟩ => rfl)
  have eb : idx_main_v45 (ix2 p k) = ix2 (0 : Fin 1) k := funext fun a => Fin.ext (by match a with | ⟨0, _⟩ => rfl | ⟨1, _⟩ => rfl)
  rw [el, er, val_main_v47_apply, val_main_v46_apply, val_main_v45_apply, val_main_call1_v0_apply,
    val_main_call1_cst_apply, eb]
  rfl

/-! ## Bias, rectifier and the output projection -/

/-- Entry (p, 0) of the output: the sum over k of max (agg₂[p,k] + b2[0,k]) 0 · Wh[k,0], plus the output bias. -/
theorem v95_eq (x0 : (⟨S100000x1, .f32⟩ : BufTy).Contents (Elt Ideal)) (x1 : (⟨S2x1600000, .i32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) :
    val_main_v95 (F := Ideal) x0 x1 x2 x3 x4 x5 x6 x7
      = fun j => Gcn.head (val_main_v87 (F := Ideal) x0 x1 x2 x3 x4) (val_main_v88 (F := Ideal) x5) x6
          (val_main_v93 (F := Ideal) x7) (j 0) (j 1) := by
  funext j
  obtain ⟨p, q, rfl⟩ : ∃ (p : Fin 100000) (q : Fin 1), j = ix2 p q := ⟨j 0, j 1, eq_ix2 j⟩
  rw [val_main_v95_apply, val_main_v92_apply, val_main_v94_apply]
  show _ = Gcn.head (val_main_v87 (F := Ideal) x0 x1 x2 x3 x4) (val_main_v88 (F := Ideal) x5) x6
    (val_main_v93 (F := Ideal) x7) p q
  unfold Gcn.head Gcn.hid
  have ec : idx_main_v94 (ix2 p q) = ix2 (0 : Fin 1) (0 : Fin 1) := funext fun a => Fin.ext (by match a with | ⟨0, _⟩ => rfl | ⟨1, _⟩ => rfl)
  rw [ec, Ideal.addf_def]
  refine congrArg (· + val_main_v93 (F := Ideal) x7 (ix2 (0 : Fin 1) (0 : Fin 1))) ?_
  refine Finset.sum_congr rfl fun k _ => ?_
  have el : lidx_main_v92 (ix2 p q) k = ix2 p k := funext fun a => Fin.ext (by match a with | ⟨0, _⟩ => rfl | ⟨1, _⟩ => rfl)
  have er : ridx_main_v92 (ix2 p q) k = ix2 k q := funext fun a => Fin.ext (by match a with | ⟨0, _⟩ => rfl | ⟨1, _⟩ => rfl)
  have eb : idx_main_v89 (ix2 p k) = ix2 (0 : Fin 1) k := funext fun a => Fin.ext (by match a with | ⟨0, _⟩ => rfl | ⟨1, _⟩ => rfl)
  rw [el, er, val_main_v91_apply, val_main_v90_apply, val_main_v89_apply, val_main_call3_v0_apply,
    val_main_call3_cst_apply, eb]
  rfl

/-! ## The second aggregation

The second layer computes its edge list, degrees and normalisation again from the edge-index input, by the same operations
in the same order as the first layer.  Each array of the second chain equals its counterpart of the first: the operation
is the same and, by the earlier steps, so are its operands. -/

section chain
variable (x1 : (⟨S2x1600000, .i32⟩ : BufTy).Contents (Elt Ideal))

/-- The node numbering (the self-loop sources and targets). -/
theorem v49_eq : val_main_v49 (F := Ideal) = val_main_v5 (F := Ideal) := rfl
/-- Edge sources followed by the self-loops. -/
theorem v50_eq : val_main_v50 (F := Ideal) x1 = val_main_v6 (F := Ideal) x1 := by
  unfold val_main_v50 val_main_v6; rw [v49_eq]
/-- Edge targets followed by the self-loops. -/
theorem v51_eq : val_main_v51 (F := Ideal) x1 = val_main_v7 (F := Ideal) x1 := by
  unfold val_main_v51 val_main_v7; rw [v49_eq]
/-- The unit edge weight. -/
theorem cst_9_eq : val_main_cst_9 (F := Ideal) = val_main_cst (F := Ideal) := rfl
theorem v52_eq : val_main_v52 (F := Ideal) = val_main_v8 (F := Ideal) := by
  unfold val_main_v52 val_main_v8; rw [cst_9_eq]
theorem cst_10_eq : val_main_cst_10 (F := Ideal) = val_main_cst_0 (F := Ideal) := rfl
theorem v53_eq : val_main_v53 (F := Ideal) = val_main_v9 (F := Ideal) := by
  unfold val_main_v53 val_main_v9; rw [cst_10_eq]
theorem v54_eq : val_main_v54 (F := Ideal) x1 = val_main_v10 (F := Ideal) x1 := by
  unfold val_main_v54 val_main_v10; rw [v51_eq]
/-- The degrees: the unit weights scatter-added at the targets. -/
theorem v55_eq : val_main_v55 (F := Ideal) x1 = val_main_v11 (F := Ideal) x1 := by
  unfold val_main_v55 val_main_v11; rw [v53_eq, v54_eq, v52_eq]
theorem cst_11_eq : val_main_cst_11 (F := Ideal) = val_main_cst_1 (F := Ideal) := rfl
theorem v56_eq : val_main_v56 (F := Ideal) = val_main_v12 (F := Ideal) := by
  unfold val_main_v56 val_main_v12; rw [cst_11_eq]
theorem v57_eq : val_main_v57 (F := Ideal) x1 = val_main_v13 (F := Ideal) x1 := by
  unfold val_main_v57 val_main_v13; rw [v55_eq, v56_eq]
theorem v58_eq : val_main_v58 (F := Ideal) x1 = val_main_v14 (F := Ideal) x1 := by
  unfold val_main_v58 val_main_v14; rw [v55_eq]
theorem cst_12_eq : val_main_cst_12 (F := Ideal) = val_main_cst_2 (F := Ideal) := rfl
theorem call2_v0_eq : val_main_call2_v0 (F := Ideal) = val_main_call0_v0 (F := Ideal) := by
  unfold val_main_call2_v0 val_main_call0_v0; rw [cst_12_eq]
theorem call2_v1_eq : val_main_call2_v1 (F := Ideal) = val_main_call0_v1 (F := Ideal) := by
  unfold val_main_call2_v1 val_main_call0_v1; rw [call2_v0_eq]
/-- The inverse square root of the degree where it is positive, zero elsewhere. -/
theorem v59_eq : val_main_v59 (F := Ideal) x1 = val_main_v15 (F := Ideal) x1 := by
  unfold val_main_v59 val_main_v15; rw [v57_eq, v58_eq, call2_v1_eq]
theorem c_13_eq : val_main_c_13 (F := Ideal) = val_main_c (F := Ideal) := rfl
theorem v60_eq : val_main_v60 (F := Ideal) = val_main_v16 (F := Ideal) := by
  unfold val_main_v60 val_main_v16; rw [c_13_eq]
theorem v61_eq : val_main_v61 (F := Ideal) x1 = val_main_v17 (F := Ideal) x1 := by
  unfold val_main_v61 val_main_v17; rw [v50_eq, v60_eq]
theorem c_14_eq : val_main_c_14 (F := Ideal) = val_main_c_3 (F := Ideal) := rfl
theorem v62_eq : val_main_v62 (F := Ideal) = val_main_v18 (F := Ideal) := by
  unfold val_main_v62 val_main_v18; rw [c_14_eq]
theorem v63_eq : val_main_v63 (F := Ideal) x1 = val_main_v19 (F := Ideal) x1 := by
  unfold val_main_v63 val_main_v19; rw [v50_eq, v62_eq]
/-- The sources with negative indices wrapped once (for the normalisation at the source). -/
theorem v64_eq : val_main_v64 (F := Ideal) x1 = val_main_v20 (F := Ideal) x1 := by
  unfold val_main_v64 val_main_v20; rw [v61_eq, v63_eq, v50_eq]
theorem v65_eq : val_main_v65 (F := Ideal) x1 = val_main_v21 (F := Ideal) x1 := by
  unfold val_main_v65 val_main_v21; rw [v64_eq]
theorem v66_eq : val_main_v66 (F := Ideal) x1 = val_main_v22 (F := Ideal) x1 := by
  unfold val_main_v66 val_main_v22; rw [v59_eq, v65_eq]
theorem c_15_eq : val_main_c_15 (F := Ideal) = val_main_c_4 (F := Ideal) := rfl
theorem v67_eq : val_main_v67 (F := Ideal) = val_main_v23 (F := Ideal) := by
  unfold val_main_v67 val_main_v23; rw [c_15_eq]
theorem v68_eq : val_main_v68 (F := Ideal) x1 = val_main_v24 (F := Ideal) x1 := by
  unfold val_main_v68 val_main_v24; rw [v51_eq, v67_eq]
theorem c_16_eq : val_main_c_16 (F := Ideal) = val_main_c_5 (F := Ideal) := rfl
theorem v69_eq : val_main_v69 (F := Ideal) = val_main_v25 (F := Ideal) := by
  unfold val_main_v69 val_main_v25; rw [c_16_eq]
theorem v70_eq : val_main_v70 (F := Ideal) x1 = val_main_v26 (F := Ideal) x1 := by
  unfold val_main_v70 val_main_v26; rw [v51_eq, v69_eq]
/-- The targets with negative indices wrapped once (for the normalisation at the target). -/
theorem v71_eq : val_main_v71 (F := Ideal) x1 = val_main_v27 (F := Ideal) x1 := by
  unfold val_main_v71 val_main_v27; rw [v68_eq, v70_eq, v51_eq]
theorem v72_eq : val_main_v72 (F := Ideal) x1 = val_main_v28 (F := Ideal) x1 := by
  unfold val_main_v72 val_main_v28; rw [v71_eq]
theorem v73_eq : val_main_v73 (F := Ideal) x1 = val_main_v29 (F := Ideal) x1 := by
  unfold val_main_v73 val_main_v29; rw [v59_eq, v72_eq]
/-- The symmetric normalisation of an edge: the product of the two inverse square roots. -/
theorem v74_eq : val_main_v74 (F := Ideal) x1 = val_main_v30 (F := Ideal) x1 := by
  unfold val_main_v74 val_main_v30; rw [v66_eq, v73_eq]
theorem c_17_eq : val_main_c_17 (F := Ideal) = val_main_c_6 (F := Ideal) := rfl
theorem v75_eq : val_main_v75 (F := Ideal) = val_main_v31 (F := Ideal) := by
  unfold val_main_v75 val_main_v31; rw [c_17_eq]
theorem v76_eq : val_main_v76 (F := Ideal) x1 = val_main_v32 (F := Ideal) x1 := by
  unfold val_main_v76 val_main_v32; rw [v50_eq, v75_eq]
theorem c_18_eq : val_main_c_18 (F := Ideal) = val_main_c_7 (F := Ideal) := rfl
theorem v77_eq : val_main_v77 (F := Ideal) = val_main_v33 (F := Ideal) := by
  unfold val_main_v77 val_main_v33; rw [c_18_eq]
theorem v78_eq : val_main_v78 (F := Ideal) x1 = val_main_v34 (F := Ideal) x1 := by
  unfold val_main_v78 val_main_v34; rw [v50_eq, v77_eq]
/-- The sources with negative indices wrapped once (for the gather of the features). -/
theorem v79_eq : val_main_v79 (F := Ideal) x1 = val_main_v35 (F := Ideal) x1 := by
  unfold val_main_v79 val_main_v35; rw [v76_eq, v78_eq, v50_eq]
/-- The gather indices as a column. -/
theorem v80_eq : val_main_v80 (F := Ideal) x1 = val_main_v36 (F := Ideal) x1 := by
  unfold val_main_v80 val_main_v36; rw [v79_eq]
theorem v82_eq : val_main_v82 (F := Ideal) x1 = val_main_v38 (F := Ideal) x1 := by
  unfold val_main_v82 val_main_v38; rw [v74_eq]
/-- The normalisation spread over the 64 feature columns. -/
theorem v83_eq : val_main_v83 (F := Ideal) x1 = val_main_v39 (F := Ideal) x1 := by
  unfold val_main_v83 val_main_v39; rw [v82_eq]
theorem cst_19_eq : val_main_cst_19 (F := Ideal) = val_main_cst_8 (F := Ideal) := rfl
/-- The all-zero array the scatter-add starts from. -/
theorem v85_eq : val_main_v85 (F := Ideal) = val_main_v41 (F := Ideal) := by
  unfold val_main_v85 val_main_v41; rw [cst_19_eq]
/-- The scatter indices as a column. -/
theorem v86_eq : val_main_v86 (F := Ideal) x1 = val_main_v42 (F := Ideal) x1 := by
  unfold val_main_v86 val_main_v42; rw [v51_eq]

end chain

/-- The second aggregation is the aggregation of the second projection. -/
theorem v87_eq (x0 : (⟨S100000x1, .f32⟩ : BufTy).Contents (Elt Ideal)) (x1 : (⟨S2x1600000, .i32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) :
    val_main_v87 (F := Ideal) x0 x1 x2 x3 x4 = agg x1 (val_main_v48 (F := Ideal) x0 x1 x2 x3 x4) := by
  unfold val_main_v87 val_main_v84 val_main_v81
  rw [v85_eq, v86_eq, v80_eq, v83_eq]
  rfl

end Cert.ReferenceIdeal.Stages

end
-- ==== Proof.Region0.lean ====
/-
  The first dense stage of the kernel as a whole-array function.

  The region multiplies an N×1 feature column by a 1×64 weight row, in ten row blocks of 10000 rows.  At the exact
  values the narrowing casts are the identity and the product accumulated into the zero block is the plain sum over the
  one contracted index, so every block entry is the specification's entry at the corresponding array row; the ten row
  blocks tile the array (row r lies in block r / 10000), hence the array after the region is the specification.
  Everything is stated at arbitrary buffer contents V at region entry.
-/
import proofs.«150524_j2680059593194_1_alg».proof.Proof.Gen.KernelIdeal.Frame
import proofs.«150524_j2680059593194_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

local notation "D0" => dot_S10000x1_S1x64_S10000x64_1_0_0_1_n_n

theorem lhs0_row (i : S10000x64.Idx) (κ : dot_S10000x1_S1x64_S10000x64_1_0_0_1_n_n.contr.Idx) :
    (dot_S10000x1_S1x64_S10000x64_1_0_0_1_n_n.lhsIdx i κ 0).val = (i 0).val := by
  unfold DotDims.lhsIdx
  rw [dif_neg (show ¬(0 : Fin S10000x1.rank) ∈ dot_S10000x1_S1x64_S10000x64_1_0_0_1_n_n.lhsBatch by decide), dif_pos (show (0 : Fin S10000x1.rank) ∈ dot_S10000x1_S1x64_S10000x64_1_0_0_1_n_n.lhsNonContracting by decide)]
  rfl

theorem rhs0_col (i : S10000x64.Idx) (κ : dot_S10000x1_S1x64_S10000x64_1_0_0_1_n_n.contr.Idx) :
    (dot_S10000x1_S1x64_S10000x64_1_0_0_1_n_n.rhsIdx i κ 1).val = (i 1).val := by
  unfold DotDims.rhsIdx
  rw [dif_neg (show ¬(1 : Fin S1x64.rank) ∈ dot_S10000x1_S1x64_S10000x64_1_0_0_1_n_n.rhsBatch by decide), dif_pos (show (1 : Fin S1x64.rank) ∈ dot_S10000x1_S1x64_S10000x64_1_0_0_1_n_n.rhsNonContracting by decide)]
  rfl

/-- The first region's payload at row p, column q: one contracted term. -/
theorem pay0_apply (x0 : Vec Ideal S10000x1 .f32) (x1 : Vec Ideal S1x64 .f32) (p : Fin 10000) (q : Fin 64) :
    k0_pay1 (F := Ideal) x0 x1 (ix2 p q) = ∑ k : Fin 1, x0 (ix2 p k) * x1 (ix2 k q) := by
  unfold k0_pay1
  refine (Ideal.matmul_constant_zero_apply dot_S10000x1_S1x64_S10000x64_1_0_0_1_n_n none _ _ (ix2 p q)).trans ?_
  rw [← Equiv.sum_comp (contrEquiv1 dot_S10000x1_S1x64_S10000x64_1_0_0_1_n_n 1 rfl rfl).symm]
  refine Finset.sum_congr rfl fun k _ => ?_
  have hk := contrEquiv1_symm_val dot_S10000x1_S1x64_S10000x64_1_0_0_1_n_n 1 rfl rfl k
  have el : dot_S10000x1_S1x64_S10000x64_1_0_0_1_n_n.lhsIdx (ix2 p q) ((contrEquiv1 dot_S10000x1_S1x64_S10000x64_1_0_0_1_n_n 1 rfl rfl).symm k) = ix2 p k :=
    funext fun a => Fin.ext (by
      match a with
      | ⟨0, _⟩ => exact lhs0_row _ _
      | ⟨1, _⟩ => exact (dot_S10000x1_S1x64_S10000x64_1_0_0_1_n_n.lhsIdx_val_of_single rfl _ _).trans hk)
  have er : dot_S10000x1_S1x64_S10000x64_1_0_0_1_n_n.rhsIdx (ix2 p q) ((contrEquiv1 dot_S10000x1_S1x64_S10000x64_1_0_0_1_n_n 1 rfl rfl).symm k) = ix2 k q :=
    funext fun a => Fin.ext (by
      match a with
      | ⟨0, _⟩ => exact (dot_S10000x1_S1x64_S10000x64_1_0_0_1_n_n.rhsIdx_val_of_single rfl _ _).trans hk
      | ⟨1, _⟩ => exact rhs0_col _ _)
  show x0 _ * x1 _ = _
  rw [el, er]

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row blocks move with the point, the weight row stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array function the region computes. -/
abbrev G0 (c : Dev nD) : S100000x64.Idx → EReal :=
  fun j => Gcn.lin1 (V c main_arg0) (V c main_arg2) (j 0) (j 1)

/-- Block t of the feature column is rows 10000 t … 10000 t + 9999 of the array. -/
theorem iblk0_0_apply (c : Dev nD) (t : Fin cfg0.N) (y : S10000x1.Idx) (i : S100000x1.Idx)
    (h0 : (i 0).val = t.val * 10000 + (y 0).val) (h1 : (i 1).val = (y 1).val) :
    (iblk0 V c 0 t : Vec Ideal S10000x1 .f32) y = (V c main_arg0 : S100000x1.Idx → EReal) i := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 1 + 1 * (y 1).val = (i 1).val; rw [e1, h1]; omega

/-- The weight row's block is the whole row at every point. -/
theorem iblk0_1_apply (c : Dev nD) (t : Fin cfg0.N) (y : S1x64.Idx) :
    (iblk0 V c 1 t : Vec Ideal S1x64 .f32) y = (V c main_arg2 : S1x64.Idx → EReal) y := by
  obtain ⟨-, -, e0, e1, -⟩ := idx_facts0 t
  unfold iblk0
  rw [View.read_apply]
  show V c main_arg2 _ = V c main_arg2 _
  refine congrArg _ (funext fun a => Fin.ext ?_)
  match a with
  | ⟨0, _⟩ => show win0_1.index t (0 : Fin 2) * 1 + 1 * (y 0).val = (y 0).val; rw [e0]; omega
  | ⟨1, _⟩ => show win0_1.index t (1 : Fin 2) * 64 + 1 * (y 1).val = (y 1).val; rw [e1]; omega

/-- What point t's payload holds at its row p and column q is the specification at array row 10000 t + p. -/
theorem point0 (c : Dev nD) (t : Fin cfg0.N) (p : Fin 10000) (q : Fin 64) (r : Fin 100000) (s : Fin 64)
    (hr : r.val = t.val * 10000 + p.val) (hs : s.val = q.val) :
    k0_pay1 (F := Ideal) (iblk0 V c 0 t) (iblk0 V c 1 t) (ix2 p q) = Gcn.lin1 (V c main_arg0) (V c main_arg2) r s := by
  refine (pay0_apply (iblk0 V c 0 t) (iblk0 V c 1 t) p q).trans ?_
  unfold Gcn.lin1
  refine Finset.sum_congr rfl fun k _ => ?_
  obtain rfl : s = q := Fin.ext hs
  rw [iblk0_0_apply V c t (ix2 p k) (ix2 r k) hr rfl, iblk0_1_apply V c t (ix2 k s)]

/-- What point t writes back is block t of the whole-array function. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S10000x1) hz, View.ld_unit_zero (S := S1x64) hz]
  obtain ⟨-, -, -, -, e0, e1⟩ := idx_facts0 t
  funext j
  obtain ⟨p, q, rfl⟩ : ∃ (p : Fin 10000) (q : Fin 64), j = ix2 p q := ⟨j 0, j 1, eq_ix2 j⟩
  refine point0 V c t p q _ _ ?_ ?_
  · show win0_2.index t (0 : Fin 2) * 10000 + 1 * p.val = _; rw [e0]; omega
  · show win0_2.index t (1 : Fin 2) * 64 + 1 * q.val = _; rw [e1]; omega

/-- An index of the array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r of the array lies in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e0, e1⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 64 ≤ (i 1).val ∧ (i 1).val < win0_2.index t (1 : Fin 2) * 64 + 64; rw [e1]; omega

/-- The first region's output array after the region: the first projection, entry by entry. -/
theorem final0 (c : Dev nD) :
    (dat0 (F := Ideal) V c).arrAt 2 cfg0.N = fun j => Gcn.lin1 (V c main_arg0) (V c main_arg2) (j 0) (j 1) :=
  (dat0 (F := Ideal) V c).arrAt_eq_of_cover 2 (G0 V c) (fun t _ => flushed0_eq V c t) (cover0)

end Cert.KernelIdeal.Regions
end
-- ==== Proof.HiddenLayer.lean ====
/-
  The hidden activation of the graph convolution at an index.

  Both later dense stages start from the same block arithmetic: add the 1×64 bias row to every row of a 10000×64 block
  of aggregated features and take the maximum with the zero word.  Read at row p and column k this is
  max (x[p,k] + b[0,k]) 0, the specification's hidden activation; the two same-shape casts are the identity and the row
  broadcast reads the bias at its column.
-/
import proofs.«150524_j2680059593194_1_alg».proof.Proof.Gen.KernelIdeal.Frame
import proofs.«150524_j2680059593194_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-- The rectified, biased block at row p, column k. -/
theorem hidden_apply (x0 : Vec Ideal S10000x64 .f32) (x1 : Vec Ideal S1x64 .f32) (p : Fin 10000) (k : Fin 64) :
    (maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) : FVec Ideal S10000x64 .f32) (ix2 p k)
      = max (x0 (ix2 p k) + x1 (ix2 0 k)) Gcn.zero := by
  rw [shapeCast_self, shapeCast_self]
  show max (x0 (ix2 p k) + broadcastTo S10000x64 x1 broadcasts_S1x64_S10000x64 (ix2 p k)) _ = _
  rw [broadcastTo_apply x1 broadcasts_S1x64_S10000x64 (ix2 p k) (ix2 0 k) (fun a => by
    match a with
    | ⟨0, _⟩ => rfl
    | ⟨1, _⟩ => rfl)]
  rfl

end Cert.KernelIdeal.Regions
end
-- ==== Proof.Region1.lean ====
/-
  The second dense stage of the kernel as a whole-array function.

  The region adds the bias row to a block of aggregated features, rectifies, and multiplies by a 64×64 weight matrix,
  in ten row blocks of 10000 rows.  At the exact values the narrowing casts are the identity and the product accumulated
  into the zero block is the plain sum over the 64 contracted indices, so every block entry is the specification's entry
  at the corresponding array row; the ten row blocks tile the array (row r lies in block r / 10000), hence the array after
  the region is the specification.  Everything is stated at arbitrary buffer contents V at region entry.
-/
import proofs.«150524_j2680059593194_1_alg».proof.Proof.Gen.KernelIdeal.Frame
import proofs.«150524_j2680059593194_1_alg».proof.Proof.Spec
import proofs.«150524_j2680059593194_1_alg».proof.Proof.HiddenLayer
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

theorem lhs1_row (i : S10000x64.Idx) (κ : dot_S10000x64_S64x64_S10000x64_1_0_0_1_n_n.contr.Idx) :
    (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

theorem rhs1_col (i : S10000x64.Idx) (κ : dot_S10000x64_S64x64_S10000x64_1_0_0_1_n_n.contr.Idx) :
    (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The second region's payload at row p, column q: the rectified, biased row against column q of the weights. -/
theorem pay1_apply (x0 : Vec Ideal S10000x64 .f32) (x1 : Vec Ideal S1x64 .f32) (x2 : Vec Ideal S64x64 .f32)
    (p : Fin 10000) (q : Fin 64) :
    k1_pay1 (F := Ideal) x0 x1 x2 (ix2 p q)
      = ∑ k : Fin 64, max (x0 (ix2 p k) + x1 (ix2 0 k)) Gcn.zero * x2 (ix2 k q) := by
  unfold k1_pay1
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs1_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact rhs1_col _ _)
  rw [el, er]
  exact congrArg (· * x2 (ix2 k q)) (hidden_apply x0 x1 p k)

variable (V : (c : Dev nD) → (b : Ref sig .tc) → Buf (Elt Ideal) ((c : Thread nD τ).loc b))

theorem offsets1 : (![0, 0] : Fin 2 → Nat) = fun _ => 0 := funext fun a => by fin_cases a <;> rfl

/-- The block index maps over the grid: the row blocks move with the point, the bias row and the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array function the region computes. -/
abbrev G1 (c : Dev nD) : S100000x64.Idx → EReal :=
  fun j => Gcn.lin2 (V c main_v43) (V c main_v44) (V c main_arg4) (j 0) (j 1)

/-- Block t of the aggregated features is rows 10000 t … 10000 t + 9999 of the array. -/
theorem iblk1_0_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v43 : S100000x64.Idx → EReal) i := by
  obtain ⟨e0, e1, -⟩ := idx_facts1 t
  unfold iblk1
  rw [View.read_apply]
  show V c main_v43 _ = V c main_v43 _
  refine congrArg _ (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The bias row's block is the whole row at every point. -/
theorem iblk1_1_apply (c : Dev nD) (t : Fin cfg1.N) (y : S1x64.Idx) :
    (iblk1 V c 1 t : Vec Ideal S1x64 .f32) y = (V c main_v44 : S1x64.Idx → EReal) y := by
  obtain ⟨-, -, e0, e1, -⟩ := idx_facts1 t
  unfold iblk1
  rw [View.read_apply]
  show V c main_v44 _ = V c main_v44 _
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

/-- The weight matrix's block is the whole matrix at every point. -/
theorem iblk1_2_apply (c : Dev nD) (t : Fin cfg1.N) (y : S64x64.Idx) :
    (iblk1 V c 2 t : Vec Ideal S64x64 .f32) y = (V c main_arg4 : S64x64.Idx → EReal) y := by
  obtain ⟨-, -, -, -, e0, e1, -⟩ := idx_facts1 t
  unfold iblk1
  rw [View.read_apply]
  show V c main_arg4 _ = V c main_arg4 _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- What point t's payload holds at its row p and column q is the specification at array row 10000 t + p. -/
theorem point1 (c : Dev nD) (t : Fin cfg1.N) (p : Fin 10000) (q : Fin 64) (r : Fin 100000) (s : Fin 64)
    (hr : r.val = t.val * 10000 + p.val) (hs : s.val = q.val) :
    k1_pay1 (F := Ideal) (iblk1 V c 0 t) (iblk1 V c 1 t) (iblk1 V c 2 t) (ix2 p q)
      = Gcn.lin2 (V c main_v43) (V c main_v44) (V c main_arg4) r s := by
  refine (pay1_apply (iblk1 V c 0 t) (iblk1 V c 1 t) (iblk1 V c 2 t) p q).trans ?_
  unfold Gcn.lin2 Gcn.hid
  refine Finset.sum_congr rfl fun k _ => ?_
  obtain rfl : s = q := Fin.ext hs
  rw [iblk1_0_apply V c t (ix2 p k) (ix2 r k) hr rfl, iblk1_1_apply V c t (ix2 0 k), iblk1_2_apply V c t (ix2 k s)]

/-- What point t writes back is block t of the whole-array function. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero offsets1]
  simp only [View.ld_unit_zero (S := S10000x64) offsets1, View.ld_unit_zero (S := S1x64) offsets1, View.ld_unit_zero (S := S64x64) offsets1]
  obtain ⟨-, -, -, -, -, -, e0, e1⟩ := idx_facts1 t
  funext j
  obtain ⟨p, q, rfl⟩ : ∃ (p : Fin 10000) (q : Fin 64), j = ix2 p q := ⟨j 0, j 1, eq_ix2 j⟩
  refine point1 V c t p q _ _ ?_ ?_
  · show win1_3.index t (0 : Fin 2) * 10000 + 1 * p.val = _; rw [e0]; omega
  · show win1_3.index t (1 : Fin 2) * 64 + 1 * q.val = _; rw [e1]; omega

/-- An index of the array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Row r of the array lies in the block of point r / 10000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e0, e1⟩ := idx_facts1 t
  have ht : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; rw [e0, ht]; omega
  | ⟨1, _⟩ => show win1_3.index t (1 : Fin 2) * 64 ≤ (i 1).val ∧ (i 1).val < win1_3.index t (1 : Fin 2) * 64 + 64; rw [e1]; omega

/-- The second region's output array after the region: the second projection of the hidden activation, entry by entry. -/
theorem final1 (c : Dev nD) :
    (dat1 (F := Ideal) V c).arrAt 3 cfg1.N
      = fun j => Gcn.lin2 (V c main_v43) (V c main_v44) (V c main_arg4) (j 0) (j 1) :=
  (dat1 (F := Ideal) V c).arrAt_eq_of_cover 3 (G1 V c) (fun t _ => flushed1_eq V c t) cover1

end Cert.KernelIdeal.Regions
end
-- ==== Proof.Region2.lean ====
/-
  The third dense stage of the kernel as a whole-array function.

  The region adds the bias row to a block of aggregated features, rectifies, multiplies by a 64×1 weight column and adds
  the scalar output bias, in ten row blocks of 10000 rows.  At the exact values the narrowing casts are the identity and
  the product accumulated into the zero block is the plain sum over the 64 contracted indices, so every block entry is
  the specification's entry at the corresponding array row; the ten row blocks tile the array (row r lies in block
  r / 10000), hence the array after the region is the specification.  Everything is stated at arbitrary buffer contents V
  at region entry.
-/
import proofs.«150524_j2680059593194_1_alg».proof.Proof.Gen.KernelIdeal.Frame
import proofs.«150524_j2680059593194_1_alg».proof.Proof.Spec
import proofs.«150524_j2680059593194_1_alg».proof.Proof.HiddenLayer
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

theorem lhs2_row (i : S10000x1.Idx) (κ : dot_S10000x64_S64x1_S10000x1_1_0_0_1_n_n.contr.Idx) :
    (dot_S10000x64_S64x1_S10000x1_1_0_0_1_n_n.lhsIdx i κ 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl

theorem rhs2_col (i : S10000x1.Idx) (κ : dot_S10000x64_S64x1_S10000x1_1_0_0_1_n_n.contr.Idx) :
    (dot_S10000x64_S64x1_S10000x1_1_0_0_1_n_n.rhsIdx i κ 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The third region's payload at row p (one column): the rectified, biased row against the weight column, plus the
    output bias. -/
theorem pay2_apply (x0 : Vec Ideal S10000x64 .f32) (x1 : Vec Ideal S1x64 .f32) (x2 : Vec Ideal S64x1 .f32)
    (x3 : Vec Ideal S1x1 .f32) (p : Fin 10000) (q : Fin 1) :
    k2_pay1 (F := Ideal) x0 x1 x2 x3 (ix2 p q)
      = (∑ k : Fin 64, max (x0 (ix2 p k) + x1 (ix2 0 k)) Gcn.zero * x2 (ix2 k q)) + x3 (ix2 0 0) := by
  unfold k2_pay1
  refine congrArg₂ (· + ·) ?_ ?_
  · refine (Ideal.matmul_constant_zero_apply dot_S10000x64_S64x1_S10000x1_1_0_0_1_n_n none _ _ (ix2 p q)).trans ?_
    rw [← Equiv.sum_comp (contrEquiv1 dot_S10000x64_S64x1_S10000x1_1_0_0_1_n_n 64 rfl rfl).symm]
    refine Finset.sum_congr rfl fun k _ => ?_
    have hk := contrEquiv1_symm_val dot_S10000x64_S64x1_S10000x1_1_0_0_1_n_n 64 rfl rfl k
    have el : dot_S10000x64_S64x1_S10000x1_1_0_0_1_n_n.lhsIdx (ix2 p q) ((contrEquiv1 dot_S10000x64_S64x1_S10000x1_1_0_0_1_n_n 64 rfl rfl).symm k) = ix2 p k :=
      funext fun a => Fin.ext (by
        match a with
        | ⟨0, _⟩ => exact lhs2_row _ _
        | ⟨1, _⟩ => exact (dot_S10000x64_S64x1_S10000x1_1_0_0_1_n_n.lhsIdx_val_of_single rfl _ _).trans hk)
    have er : dot_S10000x64_S64x1_S10000x1_1_0_0_1_n_n.rhsIdx (ix2 p q) ((contrEquiv1 dot_S10000x64_S64x1_S10000x1_1_0_0_1_n_n 64 rfl rfl).symm k) = ix2 k q :=
      funext fun a => Fin.ext (by
        match a with
        | ⟨0, _⟩ => exact (dot_S10000x64_S64x1_S10000x1_1_0_0_1_n_n.rhsIdx_val_of_single rfl _ _).trans hk
        | ⟨1, _⟩ => exact rhs2_col _ _)
    rw [el, er]
    exact congrArg (· * x2 (ix2 k q)) (hidden_apply x0 x1 p k)
  · rw [shapeCast_self]
    exact broadcastTo_apply x3 broadcasts_S1x1_S10000x1 (ix2 p q) (ix2 0 0) (fun a => by
      match a with
      | ⟨0, _⟩ => rfl
      | ⟨1, _⟩ => rfl)

variable (V : (c : Dev nD) → (b : Ref sig .tc) → Buf (Elt Ideal) ((c : Thread nD τ).loc b))

theorem offsets2 : (![0, 0] : Fin 2 → Nat) = fun _ => 0 := funext fun a => by fin_cases a <;> rfl

/-- The block index maps over the grid: the row blocks move with the point; the bias row, the weight column and the
    output bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The whole-array function the region computes. -/
abbrev G2 (c : Dev nD) : S100000x1.Idx → EReal :=
  fun j => Gcn.head (V c main_v58) (V c main_v59) (V c main_arg6) (V c main_v60) (j 0) (j 1)

/-- Block t of the aggregated features is rows 10000 t … 10000 t + 9999 of the array. -/
theorem iblk2_0_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v58 : S100000x64.Idx → EReal) i := by
  obtain ⟨e0, e1, -⟩ := idx_facts2 t
  unfold iblk2
  rw [View.read_apply]
  show V c main_v58 _ = V c main_v58 _
  refine congrArg _ (funext fun a => Fin.ext ?_)
  match a with
  | ⟨0, _⟩ => show win2_0.index t (0 : Fin 2) * 10000 + 1 * (y 0).val = (i 0).val; rw [e0, h0]; omega
  | ⟨1, _⟩ => show win2_0.index t (1 : Fin 2) * 64 + 1 * (y 1).val = (i 1).val; rw [e1, h1]; omega

/-- The bias row's block is the whole row at every point. -/
theorem iblk2_1_apply (c : Dev nD) (t : Fin cfg2.N) (y : S1x64.Idx) :
    (iblk2 V c 1 t : Vec Ideal S1x64 .f32) y = (V c main_v59 : S1x64.Idx → EReal) y := by
  obtain ⟨-, -, e0, e1, -⟩ := idx_facts2 t
  unfold iblk2
  rw [View.read_apply]
  show V c main_v59 _ = V c main_v59 _
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- The weight column's block is the whole column at every point. -/
theorem iblk2_2_apply (c : Dev nD) (t : Fin cfg2.N) (y : S64x1.Idx) :
    (iblk2 V c 2 t : Vec Ideal S64x1 .f32) y = (V c main_arg6 : S64x1.Idx → EReal) y := by
  obtain ⟨-, -, -, -, e0, e1, -⟩ := idx_facts2 t
  unfold iblk2
  rw [View.read_apply]
  show V c main_arg6 _ = V c main_arg6 _
  refine congrArg _ (funext fun a => Fin.ext ?_)
  match a with
  | ⟨0, _⟩ => show win2_2.index t (0 : Fin 2) * 64 + 1 * (y 0).val = (y 0).val; rw [e0]; omega
  | ⟨1, _⟩ => show win2_2.index t (1 : Fin 2) * 1 + 1 * (y 1).val = (y 1).val; rw [e1]; omega

/-- The output bias's block is the one entry at every point. -/
theorem iblk2_3_apply (c : Dev nD) (t : Fin cfg2.N) (y : S1x1.Idx) :
    (iblk2 V c 3 t : Vec Ideal S1x1 .f32) y = (V c main_v60 : S1x1.Idx → EReal) y := by
  obtain ⟨-, -, -, -, -, -, e0, e1, -⟩ := idx_facts2 t
  unfold iblk2
  rw [View.read_apply]
  show V c main_v60 _ = V c main_v60 _
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 1 + 1 * (y 1).val = (y 1).val; rw [e1]; omega

/-- What point t's payload holds at its row p is the specification at array row 10000 t + p. -/
theorem point2 (c : Dev nD) (t : Fin cfg2.N) (p : Fin 10000) (q : Fin 1) (r : Fin 100000) (s : Fin 1)
    (hr : r.val = t.val * 10000 + p.val) (hs : s.val = q.val) :
    k2_pay1 (F := Ideal) (iblk2 V c 0 t) (iblk2 V c 1 t) (iblk2 V c 2 t) (iblk2 V c 3 t) (ix2 p q)
      = Gcn.head (V c main_v58) (V c main_v59) (V c main_arg6) (V c main_v60) r s := by
  refine (pay2_apply (iblk2 V c 0 t) (iblk2 V c 1 t) (iblk2 V c 2 t) (iblk2 V c 3 t) p q).trans ?_
  unfold Gcn.head Gcn.hid
  obtain rfl : s = q := Fin.ext hs
  rw [iblk2_3_apply V c t (ix2 0 0)]
  refine congrArg (· + _) (Finset.sum_congr rfl fun k _ => ?_)
  rw [iblk2_0_apply V c t (ix2 p k) (ix2 r k) hr rfl, iblk2_1_apply V c t (ix2 0 k), iblk2_2_apply V c t (ix2 k s)]

/-- What point t writes back is block t of the whole-array function. -/
theorem flushed2_eq (c : Dev nD) (t : Fin cfg2.N) :
    (dat2 (F := Ideal) V c).flushed 4 t = ((cfg2.win 4).blk t).view.read (Elt Ideal) (G2 V c) := by
  show (cfg2.win 4).cut (grid2.coords t) ((dat2 V c).after 4 t) = _
  rw [after2_4]
  unfold out2_4
  rw [View.canon_unit_zero offsets2]
  simp only [View.ld_unit_zero (S := S10000x64) offsets2, View.ld_unit_zero (S := S1x64) offsets2,
    View.ld_unit_zero (S := S64x1) offsets2, View.ld_unit_zero (S := S1x1) offsets2]
  obtain ⟨-, -, -, -, -, -, -, -, e0, e1⟩ := idx_facts2 t
  funext j
  obtain ⟨p, q, rfl⟩ : ∃ (p : Fin 10000) (q : Fin 1), j = ix2 p q := ⟨j 0, j 1, eq_ix2 j⟩
  refine point2 V c t p q _ _ ?_ ?_
  · show win2_4.index t (0 : Fin 2) * 10000 + 1 * p.val = _; rw [e0]; omega
  · show win2_4.index t (1 : Fin 2) * 1 + 1 * q.val = _; rw [e1]; omega

/-- An index of the array is in point t's block iff each coordinate is in the block's range on its axis. -/
theorem mem_blk2 (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v61).slice (win2_4.rect t)).set ↔ _
  rw [View.set_slice_whole, Rect.mem_set_unit]
  exact Iff.rfl

/-- Row r of the array lies in the block of point r / 10000. -/
theorem cover2 (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 10 := N_2
  let t : Fin cfg2.N := ⟨(i 0).val / 10000, by rw [hN]; omega⟩
  obtain ⟨-, -, -, -, -, -, -, -, e0, e1⟩ := idx_facts2 t
  have ht : t.val = (i 0).val / 10000 := rfl
  refine ⟨t, flush2_4 t, ?_⟩
  rw [mem_blk2]
  intro a
  match a with
  | ⟨0, _⟩ => show win2_4.index t (0 : Fin 2) * 10000 ≤ (i 0).val ∧ (i 0).val < win2_4.index t (0 : Fin 2) * 10000 + 10000; rw [e0, ht]; omega
  | ⟨1, _⟩ => show win2_4.index t (1 : Fin 2) * 1 ≤ (i 1).val ∧ (i 1).val < win2_4.index t (1 : Fin 2) * 1 + 1; rw [e1]; omega

/-- The third region's output array after the region: the output projection of the hidden activation plus the output
    bias, entry by entry. -/
theorem final2 (c : Dev nD) :
    (dat2 (F := Ideal) V c).arrAt 4 cfg2.N
      = fun j => Gcn.head (V c main_v58) (V c main_v59) (V c main_arg6) (V c main_v60) (j 0) (j 1) :=
  (dat2 (F := Ideal) V c).arrAt_eq_of_cover 4 (G2 V c) (fun t _ => flushed2_eq V c t) cover2

end Cert.KernelIdeal.Regions
end
-- ==== Proof.KFold.lean ====
/-
  The kernel program's result array, read back through its segment boundaries.

  The program is: host operations that build the edge arrays (sources and targets with one self-loop per node) and the
  symmetric degree normalisation; region 0 (the first projection); host operations aggregating over the edges; region 1
  (bias, rectifier, second projection); the same aggregation again; region 2 (bias, rectifier, output column, output bias).
  The contents at each boundary are the previous boundary's contents after a stretch of host operations, or with a region's
  output array replaced by what its write-backs leave.  Walking back from the result buffer: the host stretches are the
  reference's own operations on the same arguments, so their results are the reference's stages; the regions are the three
  dense stages of the specification, which the reference's matrix products are as well.
-/
import proofs.«150524_j2680059593194_1_alg».proof.Proof.Gen.KernelIdeal.Frame
import proofs.«150524_j2680059593194_1_alg».proof.Proof.RefStages
import proofs.«150524_j2680059593194_1_alg».proof.Proof.Region0
import proofs.«150524_j2680059593194_1_alg».proof.Proof.Region1
import proofs.«150524_j2680059593194_1_alg».proof.Proof.Region2
import proofs.«150524_j2680059593194_1_alg».proof.Proof.Spec
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP (val_main_v6 val_main_v7 val_main_v13 val_main_v14 val_main_cst_2 val_main_v15 val_main_v30 val_main_v44 val_main_v88 val_main_v93 val_main_v4 val_main_v43 val_main_v48 val_main_v87 val_main_v95)
open Cert.ReferenceIdeal.Stages (agg)

variable (m : (ℓ : Loc nD τ sig) → Buf (Elt Ideal) ℓ) (ρ : Dev nD → PrngReg) (c : Dev nD)

/-! ## The first stretch: the edge arrays and the degrees -/

/-- The source indices (edge sources, then one self-loop per node). -/
theorem W1_src : W1 m ρ c (Proc.devRef .tc main_v5) = val_main_v6 (F := Ideal) (m ((c : Thread nD τ).loc main_arg1)) := by
  dsimp only [W1, hostOps0]; after_results_simp; rfl

/-- The target indices (edge targets, then one self-loop per node). -/
theorem W1_dst : W1 m ρ c (Proc.devRef .tc main_v6) = val_main_v7 (F := Ideal) (m ((c : Thread nD τ).loc main_arg1)) := by
  dsimp only [W1, hostOps0]; after_results_simp; rfl

/-- Which nodes have positive degree. -/
theorem W1_pos : W1 m ρ c (Proc.devRef .tc main_v12) = val_main_v13 (F := Ideal) (m ((c : Thread nD τ).loc main_arg1)) := by
  dsimp only [W1, hostOps0]; after_results_simp; rfl

/-- The inverse square root of every node's degree. -/
theorem W1_rsq : W1 m ρ c (Proc.devRef .tc main_v13) = val_main_v14 (F := Ideal) (m ((c : Thread nD τ).loc main_arg1)) := by
  dsimp only [W1, hostOps0]; after_results_simp; rfl

/-- The value given to nodes of degree zero. -/
theorem W1_zero : W1 m ρ c (Proc.devRef .tc main_cst_2) = val_main_cst_2 (F := Ideal) := by
  dsimp only [W1, hostOps0]; after_results_simp; rfl

/-! ## The second stretch: the inverse square root of the degree where it is positive, zero elsewhere -/

theorem dinv (Wx : Valuation τ sig (Elt Ideal)) (x1 : (⟨Cert.ReferenceIdeal.S2x1600000, .i32⟩ : BufTy).Contents (Elt Ideal))
    (h12 : Wx (Proc.devRef .tc main_v12) = val_main_v13 (F := Ideal) x1) (h13 : Wx (Proc.devRef .tc main_v13) = val_main_v14 (F := Ideal) x1)
    (hc : Wx (Proc.devRef .tc main_cst_2) = val_main_cst_2 (F := Ideal)) :
    StableHlo.after hostOps0_1 Wx (Proc.devRef .tc main_v14) = val_main_v15 (F := Ideal) x1 := by
  dsimp only [hostOps0_1]; after_results_simp
  simp only [cast_eq, id]
  rw [h12, h13, hc]; rfl

theorem keep0a_v5 (Wx : Valuation τ sig (Elt Ideal)) :
    StableHlo.after hostOps0_1 Wx (Proc.devRef .tc main_v5) = Wx (Proc.devRef .tc main_v5) := by
  dsimp only [hostOps0_1]; after_results_simp
theorem keep0a_v6 (Wx : Valuation τ sig (Elt Ideal)) :
    StableHlo.after hostOps0_1 Wx (Proc.devRef .tc main_v6) = Wx (Proc.devRef .tc main_v6) := by
  dsimp only [hostOps0_1]; after_results_simp

/-! ## The third stretch: the per-edge normalisation, the product of the two end nodes' factors -/

theorem nrm (Wx : Valuation τ sig (Elt Ideal)) (x1 : (⟨Cert.ReferenceIdeal.S2x1600000, .i32⟩ : BufTy).Contents (Elt Ideal))
    (h5 : Wx (Proc.devRef .tc main_v5) = val_main_v6 (F := Ideal) x1) (h6 : Wx (Proc.devRef .tc main_v6) = val_main_v7 (F := Ideal) x1)
    (h14 : Wx (Proc.devRef .tc main_v14) = val_main_v15 (F := Ideal) x1) :
    StableHlo.after hostOps0_2 Wx (Proc.devRef .tc main_v29) = val_main_v30 (F := Ideal) x1 := by
  dsimp only [hostOps0_2]; after_results_simp
  rw [h5, h6, h14]; rfl

theorem keep0b_v5 (Wx : Valuation τ sig (Elt Ideal)) :
    StableHlo.after hostOps0_2 Wx (Proc.devRef .tc main_v5) = Wx (Proc.devRef .tc main_v5) := by
  dsimp only [hostOps0_2]; after_results_simp
theorem keep0b_v6 (Wx : Valuation τ sig (Elt Ideal)) :
    StableHlo.after hostOps0_2 Wx (Proc.devRef .tc main_v6) = Wx (Proc.devRef .tc main_v6) := by
  dsimp only [hostOps0_2]; after_results_simp

/-! ## At region 0's entry -/

theorem W3_src : W3 m ρ c (Proc.devRef .tc main_v5) = val_main_v6 (F := Ideal) (m ((c : Thread nD τ).loc main_arg1)) :=
  (keep0b_v5 (W2 m ρ c)).trans ((keep0a_v5 (W1 m ρ c)).trans (W1_src m ρ c))

theorem W3_dst : W3 m ρ c (Proc.devRef .tc main_v6) = val_main_v7 (F := Ideal) (m ((c : Thread nD τ).loc main_arg1)) :=
  (keep0b_v6 (W2 m ρ c)).trans ((keep0a_v6 (W1 m ρ c)).trans (W1_dst m ρ c))

theorem W3_nrm : W3 m ρ c (Proc.devRef .tc main_v29) = val_main_v30 (F := Ideal) (m ((c : Thread nD τ).loc main_arg1)) :=
  nrm (W2 m ρ c) _ ((keep0a_v5 (W1 m ρ c)).trans (W1_src m ρ c)) ((keep0a_v6 (W1 m ρ c)).trans (W1_dst m ρ c))
    (dinv (W1 m ρ c) _ (W1_pos m ρ c) (W1_rsq m ρ c) (W1_zero m ρ c))

/-! No host operation writes an argument. -/
theorem W3_arg0 : W3 m ρ c (Proc.devRef .tc main_arg0) = (m ((c : Thread nD τ).loc main_arg0)) := by
  dsimp only [W3, W2, W1, hostOps0_2, hostOps0_1, hostOps0]; after_results_simp
theorem W3_arg2 : W3 m ρ c (Proc.devRef .tc main_arg2) = (m ((c : Thread nD τ).loc main_arg2)) := by
  dsimp only [W3, W2, W1, hostOps0_2, hostOps0_1, hostOps0]; after_results_simp
theorem W3_arg3 : W3 m ρ c (Proc.devRef .tc main_arg3) = (m ((c : Thread nD τ).loc main_arg3)) := by
  dsimp only [W3, W2, W1, hostOps0_2, hostOps0_1, hostOps0]; after_results_simp
theorem W3_arg4 : W3 m ρ c (Proc.devRef .tc main_arg4) = (m ((c : Thread nD τ).loc main_arg4)) := by
  dsimp only [W3, W2, W1, hostOps0_2, hostOps0_1, hostOps0]; after_results_simp
theorem W3_arg5 : W3 m ρ c (Proc.devRef .tc main_arg5) = (m ((c : Thread nD τ).loc main_arg5)) := by
  dsimp only [W3, W2, W1, hostOps0_2, hostOps0_1, hostOps0]; after_results_simp
theorem W3_arg6 : W3 m ρ c (Proc.devRef .tc main_arg6) = (m ((c : Thread nD τ).loc main_arg6)) := by
  dsimp only [W3, W2, W1, hostOps0_2, hostOps0_1, hostOps0]; after_results_simp
theorem W3_arg7 : W3 m ρ c (Proc.devRef .tc main_arg7) = (m ((c : Thread nD τ).loc main_arg7)) := by
  dsimp only [W3, W2, W1, hostOps0_2, hostOps0_1, hostOps0]; after_results_simp

/-! ## The stretch between regions 0 and 1 -/

/-- The aggregation of region 0's output is the reference's, once the edge arrays are. -/
theorem agg1 (Wx : Valuation τ sig (Elt Ideal)) (x1 : (⟨Cert.ReferenceIdeal.S2x1600000, .i32⟩ : BufTy).Contents (Elt Ideal))
    (h5 : Wx (Proc.devRef .tc main_v5) = val_main_v6 (F := Ideal) x1) (h6 : Wx (Proc.devRef .tc main_v6) = val_main_v7 (F := Ideal) x1)
    (h29 : Wx (Proc.devRef .tc main_v29) = val_main_v30 (F := Ideal) x1) :
    StableHlo.after hostOps1 Wx (Proc.devRef .tc main_v43) = agg x1 (Wx (Proc.devRef .tc main_v30)) := by
  dsimp only [hostOps1]; after_results_simp
  rw [h5, h6, h29]; rfl

/-- A length-64 vector recast as a 1×64 row is the vector broadcast along a new leading axis. -/
theorem row_of_vec (x : (⟨Cert.ReferenceIdeal.S64, .f32⟩ : BufTy).Contents (Elt Ideal)) (h : S64.ShapeCasts S1x64) :
    (fun i => shapeCast S1x64 x h i) = val_main_v44 (F := Ideal) x := by
  funext i
  rw [Cert.ReferenceIdeal.ReadP.val_main_v44_apply]
  refine (shapeCast_addUnit_apply ![64] x h i).trans (congrArg x (funext fun a => ?_))
  match a with
  | ⟨0, _⟩ => rfl

theorem bias1 (Wx : Valuation τ sig (Elt Ideal)) :
    StableHlo.after hostOps1 Wx (Proc.devRef .tc main_v44) = val_main_v44 (F := Ideal) (Wx (Proc.devRef .tc main_arg3)) := by
  dsimp only [hostOps1]; after_results_simp
  exact row_of_vec _ _

theorem keep1_v5 (Wx : Valuation τ sig (Elt Ideal)) :
    StableHlo.after hostOps1 Wx (Proc.devRef .tc main_v5) = Wx (Proc.devRef .tc main_v5) := by
  dsimp only [hostOps1]; after_results_simp
theorem keep1_v6 (Wx : Valuation τ sig (Elt Ideal)) :
    StableHlo.after hostOps1 Wx (Proc.devRef .tc main_v6) = Wx (Proc.devRef .tc main_v6) := by
  dsimp only [hostOps1]; after_results_simp
theorem keep1_v29 (Wx : Valuation τ sig (Elt Ideal)) :
    StableHlo.after hostOps1 Wx (Proc.devRef .tc main_v29) = Wx (Proc.devRef .tc main_v29) := by
  dsimp only [hostOps1]; after_results_simp
theorem keep1_arg4 (Wx : Valuation τ sig (Elt Ideal)) :
    StableHlo.after hostOps1 Wx (Proc.devRef .tc main_arg4) = Wx (Proc.devRef .tc main_arg4) := by
  dsimp only [hostOps1]; after_results_simp
theorem keep1_arg5 (Wx : Valuation τ sig (Elt Ideal)) :
    StableHlo.after hostOps1 Wx (Proc.devRef .tc main_arg5) = Wx (Proc.devRef .tc main_arg5) := by
  dsimp only [hostOps1]; after_results_simp
theorem keep1_arg6 (Wx : Valuation τ sig (Elt Ideal)) :
    StableHlo.after hostOps1 Wx (Proc.devRef .tc main_arg6) = Wx (Proc.devRef .tc main_arg6) := by
  dsimp only [hostOps1]; after_results_simp
theorem keep1_arg7 (Wx : Valuation τ sig (Elt Ideal)) :
    StableHlo.after hostOps1 Wx (Proc.devRef .tc main_arg7) = Wx (Proc.devRef .tc main_arg7) := by
  dsimp only [hostOps1]; after_results_simp

/-! ## The stretch between regions 1 and 2 -/

theorem agg2 (Wx : Valuation τ sig (Elt Ideal)) (x1 : (⟨Cert.ReferenceIdeal.S2x1600000, .i32⟩ : BufTy).Contents (Elt Ideal))
    (h5 : Wx (Proc.devRef .tc main_v5) = val_main_v6 (F := Ideal) x1) (h6 : Wx (Proc.devRef .tc main_v6) = val_main_v7 (F := Ideal) x1)
    (h29 : Wx (Proc.devRef .tc main_v29) = val_main_v30 (F := Ideal) x1) :
    StableHlo.after hostOps2 Wx (Proc.devRef .tc main_v58) = agg x1 (Wx (Proc.devRef .tc main_v45)) := by
  dsimp only [hostOps2]; after_results_simp
  rw [h5, h6, h29]; rfl

theorem bias2 (Wx : Valuation τ sig (Elt Ideal)) :
    StableHlo.after hostOps2 Wx (Proc.devRef .tc main_v59) = val_main_v88 (F := Ideal) (Wx (Proc.devRef .tc main_arg5)) := by
  dsimp only [hostOps2]; after_results_simp
  exact row_of_vec _ _

/-- A length-1 vector recast as a 1×1 matrix is the vector broadcast along a new leading axis. -/
theorem cell_of_vec (x : (⟨Cert.ReferenceIdeal.S1, .f32⟩ : BufTy).Contents (Elt Ideal)) (h : S1.ShapeCasts S1x1) :
    (fun i => shapeCast S1x1 x h i) = val_main_v93 (F := Ideal) x := by
  funext i
  rw [Cert.ReferenceIdeal.ReadP.val_main_v93_apply]
  refine (shapeCast_addUnit_apply ![1] x h i).trans (congrArg x (funext fun a => ?_))
  match a with
  | ⟨0, _⟩ => exact Fin.ext (show (i 1).val = 0 from Nat.lt_one_iff.mp (i 1).isLt)

theorem bias3 (Wx : Valuation τ sig (Elt Ideal)) :
    StableHlo.after hostOps2 Wx (Proc.devRef .tc main_v60) = val_main_v93 (F := Ideal) (Wx (Proc.devRef .tc main_arg7)) := by
  dsimp only [hostOps2]; after_results_simp
  exact cell_of_vec _ _

theorem keep2_arg6 (Wx : Valuation τ sig (Elt Ideal)) :
    StableHlo.after hostOps2 Wx (Proc.devRef .tc main_arg6) = Wx (Proc.devRef .tc main_arg6) := by
  dsimp only [hostOps2]; after_results_simp

/-! ## The result -/

section Result

open Cert.ReferenceIdeal.Stages in
/-- The kernel program's result array is the reference's result stage of the same arguments. -/
theorem out_eq : W8 m ρ c (Proc.devRef .tc main_v61)
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- the edge arrays and the normalisation at the later boundaries
  have s4 := (W4_of_ne m ρ c main_v5 (by decide)).trans (W3_src m ρ c)
  have d4 := (W4_of_ne m ρ c main_v6 (by decide)).trans (W3_dst m ρ c)
  have n4 := (W4_of_ne m ρ c main_v29 (by decide)).trans (W3_nrm m ρ c)
  have s6 := (W6_of_ne m ρ c main_v5 (by decide)).trans ((keep1_v5 (W4 m ρ c)).trans s4)
  have d6 := (W6_of_ne m ρ c main_v6 (by decide)).trans ((keep1_v6 (W4 m ρ c)).trans d4)
  have n6 := (W6_of_ne m ρ c main_v29 (by decide)).trans ((keep1_v29 (W4 m ρ c)).trans n4)
  -- the arguments at the later boundaries
  have a3 := (W4_of_ne m ρ c main_arg3 (by decide)).trans (W3_arg3 m ρ c)
  have a4 := (keep1_arg4 (W4 m ρ c)).trans ((W4_of_ne m ρ c main_arg4 (by decide)).trans (W3_arg4 m ρ c))
  have a5 := (W6_of_ne m ρ c main_arg5 (by decide)).trans ((keep1_arg5 (W4 m ρ c)).trans ((W4_of_ne m ρ c main_arg5 (by decide)).trans (W3_arg5 m ρ c)))
  have a6 := (keep2_arg6 (W6 m ρ c)).trans ((W6_of_ne m ρ c main_arg6 (by decide)).trans ((keep1_arg6 (W4 m ρ c)).trans ((W4_of_ne m ρ c main_arg6 (by decide)).trans (W3_arg6 m ρ c))))
  have a7 := (W6_of_ne m ρ c main_arg7 (by decide)).trans ((keep1_arg7 (W4 m ρ c)).trans ((W4_of_ne m ρ c main_arg7 (by decide)).trans (W3_arg7 m ρ c)))
  -- region 0: the first projection
  have e30 : W4 m ρ c (Proc.devRef .tc main_v30) = val_main_v4 (F := Ideal) (m ((c : Thread nD τ).loc main_arg0)) (m ((c : Thread nD τ).loc main_arg2)) := by
    rw [v4_eq]
    refine (W4_arr m ρ c 2).trans ((Cert.KernelIdeal.Regions.final0 (V3 m ρ) c).trans ?_)
    have h0 : V3 m ρ c main_arg0 = (m ((c : Thread nD τ).loc main_arg0)) := W3_arg0 m ρ c
    have h2 : V3 m ρ c main_arg2 = (m ((c : Thread nD τ).loc main_arg2)) := W3_arg2 m ρ c
    rw [h0, h2]; rfl
  -- the first aggregation, the bias row
  have e43 : W5 m ρ c (Proc.devRef .tc main_v43) = val_main_v43 (F := Ideal) (m ((c : Thread nD τ).loc main_arg0)) (m ((c : Thread nD τ).loc main_arg1)) (m ((c : Thread nD τ).loc main_arg2)) := by
    rw [v43_eq, ← e30]; exact agg1 (W4 m ρ c) _ s4 d4 n4
  have e44 : W5 m ρ c (Proc.devRef .tc main_v44) = val_main_v44 (F := Ideal) (m ((c : Thread nD τ).loc main_arg3)) := (bias1 (W4 m ρ c)).trans (congrArg _ a3)
  -- region 1: the second projection
  have e45 : W6 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [v48_eq]
    refine (W6_arr m ρ c 3).trans ((Cert.KernelIdeal.Regions.final1 (V5 m ρ) c).trans ?_)
    have h1 : V5 m ρ c main_v43 = _ := e43
    have h2 : V5 m ρ c main_v44 = _ := e44
    have h3 : V5 m ρ c main_arg4 = _ := a4
    rw [h1, h2, h3]; rfl
  -- the second aggregation, the bias row, the output bias
  have e58 : W7 m ρ c (Proc.devRef .tc main_v58) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    rw [v87_eq, ← e45]; exact agg2 (W6 m ρ c) _ s6 d6 n6
  have e59 : W7 m ρ c (Proc.devRef .tc main_v59) = val_main_v88 (F := Ideal) (m ((c : Thread nD τ).loc main_arg5)) := (bias2 (W6 m ρ c)).trans (congrArg _ a5)
  have e60 : W7 m ρ c (Proc.devRef .tc main_v60) = val_main_v93 (F := Ideal) (m ((c : Thread nD τ).loc main_arg7)) := (bias3 (W6 m ρ c)).trans (congrArg _ a7)
  -- region 2: the output column
  rw [v95_eq]
  refine (W8_arr m ρ c 4).trans ((Cert.KernelIdeal.Regions.final2 (V7 m ρ) c).trans ?_)
  have h1 : V7 m ρ c main_v58 = _ := e58
  have h2 : V7 m ρ c main_v59 = _ := e59
  have h3 : V7 m ρ c main_arg6 = _ := a6
  have h4 : V7 m ρ c main_v60 = _ := e60
  rw [h1, h2, h3, h4]; rfl

end Result

end Cert.KernelIdeal.Fold

end
-- ==== Proof.lean ====
/-
  A two-layer graph convolution with a linear head, tiled over 100000 nodes, against its plain reference.

  Both programs compute, from node features x, an edge list, and weights W1, b1, W2, b2, Wh, bh,
      relu(Â·relu(Â·(x·W1) + b1)·W2 + b2)·Wh + bh,
  where Â is the aggregation over the edges (with one self-loop per node) scaled by the symmetric degree normalisation.
  The kernel program runs the three dense stages x·W1, relu(· + b1)·W2 and relu(· + b2)·Wh + bh as tiled regions of ten
  row blocks each, and the aggregation by the reference's own host operations between them.  At the exact values a change
  of float format is the identity, a block's matrix product into a zero accumulator is the row-by-column sum, and the
  blocks tile the node axis, so each region's output array is the corresponding matrix product of the reference entry by
  entry; the aggregations are literally the same operations on equal operands.  No property of the inputs is used.

  * the two kernel programs' frames are the generated ones; the reference's frame is its run with the result dropped;
  * nothing was rewritten by the idealization, so there is nothing to preserve;
  * the kernel program's run with its result named is `Out.run_out`, the result read back through the segment
    boundaries is `Fold.out_eq`, the reference's run is `ValueP.run`.
-/
import proofs.«150524_j2680059593194_1_alg».proof.Defs
import proofs.«150524_j2680059593194_1_alg».proof.Proof.Gen.Kernel
import proofs.«150524_j2680059593194_1_alg».proof.Proof.Gen.Kernel.Skeleton
import proofs.«150524_j2680059593194_1_alg».proof.Proof.Gen.Kernel.Launch
import proofs.«150524_j2680059593194_1_alg».proof.Proof.Gen.Kernel.Points
import proofs.«150524_j2680059593194_1_alg».proof.Proof.Gen.Kernel.Frame
import proofs.«150524_j2680059593194_1_alg».proof.Proof.Gen.KernelIdeal
import proofs.«150524_j2680059593194_1_alg».proof.Proof.Gen.KernelIdeal.Skeleton
import proofs.«150524_j2680059593194_1_alg».proof.Proof.Gen.KernelIdeal.Launch
import proofs.«150524_j2680059593194_1_alg».proof.Proof.Gen.KernelIdeal.Points
import proofs.«150524_j2680059593194_1_alg».proof.Proof.Gen.KernelIdeal.Frame
import proofs.«150524_j2680059593194_1_alg».proof.Proof.Gen.ReferenceIdeal
import proofs.«150524_j2680059593194_1_alg».proof.Proof.Gen.Pre_finite_inputs
import Idealize.ShloMosaic.Adequacy
import Idealize.ShloMosaic.Init
import proofs.«150524_j2680059593194_1_alg».proof.Proof.RefRun
import proofs.«150524_j2680059593194_1_alg».proof.Proof.RefRead
import proofs.«150524_j2680059593194_1_alg».proof.Proof.KRun
import proofs.«150524_j2680059593194_1_alg».proof.Proof.KFold

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the same result array: the reference's result stage
    of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v61),
    Cert.KernelIdeal.Out.run_out (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v95_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.Fold.out_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
